-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 66
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S_, .i32⟩
  | .hbm, ⟨43, _⟩ => ⟨S_, .f32⟩
  | .hbm, ⟨44, _⟩ => ⟨S128x128, .f32⟩
  | .hbm, ⟨45, _⟩ => ⟨S1x128, .f32⟩
  | .hbm, ⟨46, _⟩ => ⟨S50000x128, .f32⟩
  | .hbm, ⟨47, _⟩ => ⟨S50000x40, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x40, .f32⟩
  | .hbm, ⟨57, _⟩ => ⟨S_, .f32⟩
  | .hbm, ⟨58, _⟩ => ⟨S50000x40, .f32⟩
  | .hbm, ⟨59, _⟩ => ⟨S850000x1, .i32⟩
  | .hbm, ⟨60, _⟩ => ⟨S50000x40, .f32⟩
  | .hbm, ⟨61, _⟩ => ⟨S50000x40, .f32⟩
  | .hbm, ⟨62, _⟩ => ⟨S50000x40, .f32⟩
  | .hbm, ⟨63, _⟩ => ⟨S1x40, .f32⟩
  | .hbm, ⟨64, _⟩ => ⟨S50000x40, .f32⟩
  | .hbm, ⟨65, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  pads_S128x40_S128x128_000_0880 : S128x40.Pads (![0, 0] : Fin 2 → Nat) ![0, 88] ![0, 0] S128x128
  h_S_ : 0 < S_.numel
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  slices_S50000x128_S50000x40_0_0 : S50000x128.Slices ![0, 0] S50000x40
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel program's run with its RESULT named. The program is a chain of nine segments: three stretches of
  host operations (the edge lists with self loops appended, the in-degree of every node and its inverse square root), the
  first matrix-product region, three more stretches (gather the scaled rows along the edges, sum them per target node,
  pad the second weight matrix), the second region, and a last stretch (slice, gather, sum per target, scale, add the
  bias). Every weakly fair execution terminates with each buffer at the fold of those segments from the launch memory;
  read at the result buffer this is the result array as a function of the launch memory, and at the six arguments it is
  the arguments unchanged.
-/
import proofs.«152939_j48919677501959_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    segment boundary's contents and the six argument arrays as launched. -/
theorem run_result : θ_run defs (onTc (τ := τ) (main (F := F))) ⟨m, fun _ => 0, ρ⟩ (fun r => ∀ c : Dev nD,
      r.2.mem ((c.tc : Thread nD τ).loc main_v45) = W9 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v45 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.KernelHost.lean ====
/-
  What the idealized kernel program's buffers hold at its segment boundaries, as functions of the launch memory.
  Before the first region the host computes, from the edge list, the source and target node of every edge with the
  self loops appended, the in-degree of every node and from it the scale d = deg^(-1/2) (0 where the degree is 0),
  as a column. The first region writes the rows of X·W1 scaled by d. Between the regions the host gathers those rows
  along the edges' sources (negative indices wrapped) and sums them per target node, pads W2 with zero columns and
  lays b1 out as a row. The second region writes the rows of relu(d·agg + b1)·W2pad scaled by d. After it the host
  keeps the first 40 columns, gathers and sums again, scales by d and adds b2.
  The edge-list stages are the same operations as the reference program's, so they are stated through its stages.
-/
import proofs.«152939_j48919677501959_2_alg».proof.Proof.Gen.KernelIdeal.Frame
import proofs.«152939_j48919677501959_2_alg».proof.Proof.RefRead
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v14 val_main_v36 val_main_v41 val_main_v42 val_main_v54 val_main_v59 val_main_v60 val_main_v63)

variable {F : FTy → Type} [FloatOps F]
variable (m : (ℓ : Loc nD τ sig) → Buf (Elt F) ℓ) (ρ : Dev nD → PrngReg) (c : Dev nD)

/-! ## Before the first region -/

set_option maxHeartbeats 16000000 in
/-- The edges' source nodes, self loops appended. -/
theorem srcs3 : W3 m ρ c (Proc.devRef .tc main_v3) = val_main_v3 (F := F) (m ((c : Thread nD τ).loc main_arg1)) := by
  show after hostOps0_2 (after hostOps0_1 (after hostOps0 (W0 m ρ c))) (Proc.devRef .tc main_v3) = _
  after_results_simp <;> rfl

set_option maxHeartbeats 16000000 in
/-- The edges' target nodes, self loops appended. -/
theorem tgts3 : W3 m ρ c (Proc.devRef .tc main_v6) = val_main_v6 (F := F) (m ((c : Thread nD τ).loc main_arg1)) := by
  show after hostOps0_2 (after hostOps0_1 (after hostOps0 (W0 m ρ c))) (Proc.devRef .tc main_v6) = _
  after_results_simp <;> rfl

set_option maxHeartbeats 16000000 in
/-- The scale d as a column. -/
theorem scale3 : W3 m ρ c (Proc.devRef .tc main_v15)
    = shapeCast S50000x1 (val_main_v14 (F := F) (m ((c : Thread nD τ).loc main_arg1))) shapeCasts_S50000_S50000x1 := by
  show after hostOps0_2 (after hostOps0_1 (after hostOps0 (W0 m ρ c))) (Proc.devRef .tc main_v15) = _
  after_results_simp <;> rfl

set_option maxHeartbeats 16000000 in
theorem x3 : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
set_option maxHeartbeats 16000000 in
theorem w13 : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
set_option maxHeartbeats 16000000 in
theorem b13 : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
set_option maxHeartbeats 16000000 in
theorem w23 : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
set_option maxHeartbeats 16000000 in
theorem b23 : W3 m ρ c (Proc.devRef .tc main_arg5) = m ((c : Thread nD τ).loc main_arg5) := by
  show after hostOps0_2 (after hostOps0_1 (after hostOps0 (W0 m ρ c))) (Proc.devRef .tc main_arg5) = _
  after_results_simp <;> rfl

/-! ## Across the first region: its output is what the pipeline leaves, every other buffer is kept -/

theorem out4 : W4 m ρ c (Proc.devRef .tc main_v16) = (dat0 (V3 m ρ) c).arrAt 3 cfg0.N := W4_arr m ρ c 3
theorem scale4 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem srcs4 : W4 m ρ c (Proc.devRef .tc main_v3) = W3 m ρ c (Proc.devRef .tc main_v3) := W4_of_ne m ρ c main_v3 (by decide)
theorem tgts4 : W4 m ρ c (Proc.devRef .tc main_v6) = W3 m ρ c (Proc.devRef .tc main_v6) := W4_of_ne m ρ c main_v6 (by decide)
theorem b14 : W4 m ρ c (Proc.devRef .tc main_arg3) = W3 m ρ c (Proc.devRef .tc main_arg3) := W4_of_ne m ρ c main_arg3 (by decide)
theorem w24 : W4 m ρ c (Proc.devRef .tc main_arg4) = W3 m ρ c (Proc.devRef .tc main_arg4) := W4_of_ne m ρ c main_arg4 (by decide)
theorem b24 : W4 m ρ c (Proc.devRef .tc main_arg5) = W3 m ρ c (Proc.devRef .tc main_arg5) := W4_of_ne m ρ c main_arg5 (by decide)

/-! ## Between the regions -/

set_option maxHeartbeats 16000000 in
/-- The first layer's messages summed per target node: the rows of the first region's output gathered along the
    edges' sources, added into zeros at the edges' targets. -/
theorem agg7 : W7 m ρ c (Proc.devRef .tc main_v26)
    = Host.scatterAdd scatter_S50000x128_S850000x1_S850000x128_1_0_0_1 (val_main_v41 (F := F))
        (val_main_v42 (F := F) (m ((c : Thread nD τ).loc main_arg1)))
        (Host.gather gather_S50000x128_S850000x1_S850000x128_1_0_n_n_0_1_1128 ((dat0 (V3 m ρ) c).arrAt 3 cfg0.N)
          (val_main_v36 (F := F) (m ((c : Thread nD τ).loc main_arg1)))) := by
  show after hostOps1_2 (after hostOps1_1 (after hostOps1 (W4 m ρ c))) (Proc.devRef .tc main_v26) = _
  after_results_simp
  rw [out4, srcs4, tgts4, srcs3, tgts3]; rfl

set_option maxHeartbeats 16000000 in
/-- W2 with 88 zero columns appended. -/
theorem wpad7 : W7 m ρ c (Proc.devRef .tc main_v27)
    = pad S128x128 ![0, 0] ![0, 88] ![0, 0] (m ((c : Thread nD τ).loc main_arg4)) (sitofp .f32 (constantI S_ 32 0#32)) pads_S128x40_S128x128_000_0880 h_S_ := by
  show after hostOps1_2 (after hostOps1_1 (after hostOps1 (W4 m ρ c))) (Proc.devRef .tc main_v27) = _
  after_results_simp
  rw [w24, w23]; rfl

set_option maxHeartbeats 16000000 in
/-- b1 as a row. -/
theorem brow7 : W7 m ρ c (Proc.devRef .tc main_v28)
    = shapeCast S1x128 (m ((c : Thread nD τ).loc main_arg3)) shapeCasts_S128_S1x128 := by
  show after hostOps1_2 (after hostOps1_1 (after hostOps1 (W4 m ρ c))) (Proc.devRef .tc main_v28) = _
  after_results_simp
  rw [b14, b13]; rfl

set_option maxHeartbeats 16000000 in
theorem scale7 : W7 m ρ c (Proc.devRef .tc main_v15) = W3 m ρ c (Proc.devRef .tc main_v15) := by
  show after hostOps1_2 (after hostOps1_1 (after hostOps1 (W4 m ρ c))) (Proc.devRef .tc main_v15) = _
  after_results_simp
  exact scale4 m ρ c
set_option maxHeartbeats 16000000 in
theorem srcs7 : W7 m ρ c (Proc.devRef .tc main_v3) = W3 m ρ c (Proc.devRef .tc main_v3) := by
  show after hostOps1_2 (after hostOps1_1 (after hostOps1 (W4 m ρ c))) (Proc.devRef .tc main_v3) = _
  after_results_simp
  exact srcs4 m ρ c
set_option maxHeartbeats 16000000 in
theorem tgts7 : W7 m ρ c (Proc.devRef .tc main_v6) = W3 m ρ c (Proc.devRef .tc main_v6) := by
  show after hostOps1_2 (after hostOps1_1 (after hostOps1 (W4 m ρ c))) (Proc.devRef .tc main_v6) = _
  after_results_simp
  exact tgts4 m ρ c
set_option maxHeartbeats 16000000 in
theorem b27 : W7 m ρ c (Proc.devRef .tc main_arg5) = W3 m ρ c (Proc.devRef .tc main_arg5) := by
  show after hostOps1_2 (after hostOps1_1 (after hostOps1 (W4 m ρ c))) (Proc.devRef .tc main_arg5) = _
  after_results_simp
  exact b24 m ρ c

/-! ## Across the second region -/

theorem out8 : W8 m ρ c (Proc.devRef .tc main_v29) = (dat1 (V7 m ρ) c).arrAt 4 cfg1.N := W8_arr m ρ c 4
theorem scale8 : W8 m ρ c (Proc.devRef .tc main_v15) = W7 m ρ c (Proc.devRef .tc main_v15) :=
  (W8_arr m ρ c 1).trans (((dat1 (V7 m ρ) c).arrAt_in 1 rfl _).trans (A_eq1 (V7 m ρ) c 1))
theorem srcs8 : W8 m ρ c (Proc.devRef .tc main_v3) = W7 m ρ c (Proc.devRef .tc main_v3) := W8_of_ne m ρ c main_v3 (by decide)
theorem tgts8 : W8 m ρ c (Proc.devRef .tc main_v6) = W7 m ρ c (Proc.devRef .tc main_v6) := W8_of_ne m ρ c main_v6 (by decide)
theorem b28 : W8 m ρ c (Proc.devRef .tc main_arg5) = W7 m ρ c (Proc.devRef .tc main_arg5) := W8_of_ne m ρ c main_arg5 (by decide)

/-! ## After the second region: the result -/

set_option maxHeartbeats 16000000 in
/-- The result array: the first 40 columns of the second region's output gathered along the edges' sources, summed
    per target node, each row scaled by d, plus b2. -/
theorem result9 : W9 m ρ c (Proc.devRef .tc main_v45)
    = addf (mulf
        (Host.scatterAdd scatter_S50000x40_S850000x1_S850000x40_1_0_0_1 (val_main_v59 (F := F))
          (val_main_v60 (F := F) (m ((c : Thread nD τ).loc main_arg1)))
          (Host.gather gather_S50000x40_S850000x1_S850000x40_1_0_n_n_0_1_140
            (extractStridedSlice S50000x40 ![0, 0] ((dat1 (V7 m ρ) c).arrAt 4 cfg1.N) slices_S50000x128_S50000x40_0_0)
            (val_main_v54 (F := F) (m ((c : Thread nD τ).loc main_arg1)))))
        (broadcastInDim S50000x40 ![0, 1] bcast_S50000x1_S50000x40_0_1
          (shapeCast S50000x1 (val_main_v14 (F := F) (m ((c : Thread nD τ).loc main_arg1))) shapeCasts_S50000_S50000x1)))
      (val_main_v63 (F := F) (m ((c : Thread nD τ).loc main_arg5))) := by
  show after hostOps2 (W8 m ρ c) (Proc.devRef .tc main_v45) = _
  after_results_simp
  rw [out8, scale8, srcs8, tgts8, b28, scale7, srcs7, tgts7, b27, scale3, srcs3, tgts3, b23]; rfl

end Cert.KernelIdeal.Host

end
-- ==== Proof.RegionValues.lean ====
import proofs.«152939_j48919677501959_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.RegionValues

open Cert.KernelIdeal Cert.KernelIdeal.Gen

/-! # What each of the two row-blocked products leaves in its output array

Both regions walk a grid of ten points; point `t` handles rows `5000 t … 5000 t + 4999` of a 50000-row array.
Region 0 stores, per row block, `(X_blk · W) * Dc_blk` (the scale broadcast along each row); region 1 stores
`(max (A_blk * Dc_blk + B) 0 · Wp) * Dc_blk`. At the ideal values rounding to bf16 is the identity and the matrix product
into a zero accumulator is the plain sum over the contracted axis, so each output array is one closed-form function of
the arrays the region finds on entry. -/

/-- The zero offsets of a whole-buffer access, as a constant function. -/
theorem hz : (![0, 0] : Fin 2 → Nat) = fun _ => 0 := funext fun a => by fin_cases a <;> rfl

/-! ## Layout operations at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The [5000,128] × [128,128] product at an index -/

/-- The dimension numbers of both kernels' matrix product: rows × contraction times contraction × columns. -/
abbrev D := dot_S5000x128_S128x128_S5000x128_1_0_0_1_n_n

theorem lhsIdx_row (i : S5000x128.Idx) (κ : D.contr.Idx) : (D.lhsIdx i κ 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhsIdx_col (i : S5000x128.Idx) (κ : D.contr.Idx) : (D.lhsIdx i κ 1).val = (κ ⟨0, by decide⟩).val :=
  D.lhsIdx_val_of_single rfl i κ
theorem rhsIdx_row (i : S5000x128.Idx) (κ : D.contr.Idx) : (D.rhsIdx i κ 0).val = (κ ⟨0, by decide⟩).val :=
  D.rhsIdx_val_of_single rfl i κ
theorem rhsIdx_col (i : S5000x128.Idx) (κ : D.contr.Idx) : (D.rhsIdx i κ 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- Into a zero accumulator the product at `(p, q)` is the sum over `k` of row `p` of the left factor times column `q` of
    the right one. -/
theorem matmul_zero_apply {φ₁ φ₂ : FTy} (a : FVec Ideal S5000x128 φ₁) (b : FVec Ideal S128x128 φ₂) (p : Fin 5000) (q : Fin 128) :
    matmul D none a b (constant (F := Ideal) S5000x128 .f32 0x00000000#32) (ix2 p q) = ∑ k : Fin 128, a (ix2 p k) * b (ix2 k q) := by
  show FloatOps.matmul D none a b (constant (F := Ideal) S5000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun ax => Fin.ext (by
    match ax with
    | ⟨0, _⟩ => exact lhsIdx_row _ _
    | ⟨1, _⟩ => exact (lhsIdx_col _ _).trans hk)
  have er : D.rhsIdx (ix2 p q) ((contrEquiv1 D 128 rfl rfl).symm k) = ix2 k q := funext fun ax => Fin.ext (by
    match ax with
    | ⟨0, _⟩ => exact (rhsIdx_row _ _).trans hk
    | ⟨1, _⟩ => exact rhsIdx_col _ _)
  rw [el, er]

/-! ## Region 0: `(X · W) * Dc` -/

/-- The stored block at `(p, q)`: row `p` of the loaded rows against column `q` of the weights, times the row's scale. -/
theorem pay0_apply (x0 : Vec Ideal S5000x128 .f32) (x1 : Vec Ideal S128x128 .f32) (x2 : Vec Ideal S5000x1 .f32) (p : Fin 5000) (q : Fin 128) :
    Gen.k0_pay1 (F := Ideal) x0 x1 x2 (ix2 p q) = (∑ k : Fin 128, x0 (ix2 p k) * x1 (ix2 k q)) * x2 (ix2 p 0) := by
  unfold Gen.k0_pay1
  rw [mulf_apply, matmul_zero_apply, broadcastTo_a1_ab_apply, shapeCast_self]
  rfl

section Region0
variable (V : (c : Dev nD) → (b : Ref sig .tc) → Buf (Elt Ideal) ((c : Thread nD τ).loc b))

/-- Row `r` of the output: row `r` of `X` against the columns of `W`, each entry scaled by the row's `Dc`. -/
def layer1 (X : S50000x128.Idx → EReal) (W : S128x128.Idx → EReal) (Dc : S50000x1.Idx → EReal) : S50000x128.Idx → EReal :=
  fun i => (∑ k : Fin 128, X (ix2 (i 0) k) * W (ix2 k (i 1))) * Dc (ix2 (i 0) 0)

/-- Which buffer each window of region 0 walks. -/
theorem arr0_0 : Pipeline.arrRef spec0 0 = main_arg0 := rfl
theorem arr0_1 : Pipeline.arrRef spec0 1 = main_arg2 := rfl
theorem arr0_2 : Pipeline.arrRef spec0 2 = main_v15 := rfl
theorem arr0_3 : Pipeline.arrRef spec0 3 = main_v16 := rfl

/-- The stored block at `(p, q)` is `layer1` at any array index `i` whose row the loaded blocks' row `p` is and whose
    column is `q`. -/
theorem pay0_block (x0 : Vec Ideal S5000x128 .f32) (x1 : Vec Ideal S128x128 .f32) (x2 : Vec Ideal S5000x1 .f32)
    (X : S50000x128.Idx → EReal) (W : S128x128.Idx → EReal) (Dc : S50000x1.Idx → EReal)
    (p : Fin 5000) (q : Fin 128) (i : S50000x128.Idx)
    (h0 : ∀ k : Fin 128, x0 (ix2 p k) = X (ix2 (i 0) k))
    (h1 : ∀ k : Fin 128, x1 (ix2 k q) = W (ix2 k (i 1)))
    (h2 : x2 (ix2 p 0) = Dc (ix2 (i 0) 0)) :
    Gen.k0_pay1 (F := Ideal) x0 x1 x2 (ix2 p q) = layer1 X W Dc i := by
  rw [pay0_apply, h2]
  show _ = (∑ k : Fin 128, X (ix2 (i 0) k) * W (ix2 k (i 1))) * Dc (ix2 (i 0) 0)
  refine congrArg (· * Dc (ix2 (i 0) 0)) (Finset.sum_congr rfl fun k _ => ?_)
  rw [h0 k, h1 k]

/-- The block numbers at point `t`: the row-blocked windows sit at block row `t`, block column 0; the weights' one block
    is the whole array. -/
theorem blocks0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of the rows loaded at point `t` is entry `(5000 t + p, k)` of `X`. -/
theorem rows0_apply (c : Dev nD) (t : Fin cfg0.N) (p : Fin 5000) (k : Fin 128) (i : S50000x128.Idx)
    (hi0 : (i 0).val = t.val * 5000 + p.val) (hi1 : (i 1).val = k.val) :
    (Gen.iblk0 V c 0 t : Vec Ideal S5000x128 .f32) (ix2 p k) = (V c (Pipeline.arrRef spec0 0) : S50000x128.Idx → EReal) i := by
  obtain ⟨e0, e1, -⟩ := blocks0 t
  show (V c (Pipeline.arrRef spec0 0) : S50000x128.Idx → EReal) (((cfg0.win 0).blk t).view.emb (ix2 p k)) = _
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The weights' block is the whole array at every point. -/
theorem weights0_apply (c : Dev nD) (t : Fin cfg0.N) (k : Fin 128) (q : Fin 128) (i : S128x128.Idx)
    (hi0 : (i 0).val = k.val) (hi1 : (i 1).val = q.val) :
    (Gen.iblk0 V c 1 t : Vec Ideal S128x128 .f32) (ix2 k q) = (V c (Pipeline.arrRef spec0 1) : S128x128.Idx → EReal) i := by
  obtain ⟨-, -, e2, e3, -⟩ := blocks0 t
  show (V c (Pipeline.arrRef spec0 1) : S128x128.Idx → EReal) (((cfg0.win 1).blk t).view.emb (ix2 k q)) = _
  refine congrArg _ (funext fun a => Fin.ext ?_)
  match a with
  | ⟨0, _⟩ => show win0_1.index t (0 : Fin 2) * 128 + 1 * k.val = (i 0).val; omega
  | ⟨1, _⟩ => show win0_1.index t (1 : Fin 2) * 128 + 1 * q.val = (i 1).val; omega

/-- Entry `p` of the scales loaded at point `t` is entry `5000 t + p` of `Dc`. -/
theorem scale0_apply (c : Dev nD) (t : Fin cfg0.N) (p : Fin 5000) (i : S50000x1.Idx)
    (hi0 : (i 0).val = t.val * 5000 + p.val) :
    (Gen.iblk0 V c 2 t : Vec Ideal S5000x1 .f32) (ix2 p 0) = (V c (Pipeline.arrRef spec0 2) : S50000x1.Idx → EReal) i := by
  obtain ⟨-, -, -, -, e4, e5, -⟩ := blocks0 t
  show (V c (Pipeline.arrRef spec0 2) : S50000x1.Idx → EReal) (((cfg0.win 2).blk t).view.emb (ix2 p 0)) = _
  refine congrArg _ (funext fun a => Fin.ext ?_)
  match a with
  | ⟨0, _⟩ => show win0_2.index t (0 : Fin 2) * 5000 + 1 * p.val = (i 0).val; omega
  | ⟨1, _⟩ =>
    show win0_2.index t (1 : Fin 2) * 1 + 1 * (0 : Fin 1).val = (i 1).val
    have h1 : (i 1).val < 1 := (i 1).isLt
    have h0 : ((0 : Fin 1) : Nat) = 0 := rfl
    omega

/-- WHAT POINT `t` WRITES BACK is block `t` of `layer1` of the arrays as the region finds them. -/
theorem flushed0_eq (c : Dev nD) (t : Fin cfg0.N) :
    (Gen.dat0 (F := Ideal) V c).flushed 3 t = ((cfg0.win 3).blk t).view.read (Elt Ideal)
      (layer1 (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero hz]
  simp only [View.ld_unit_zero (S := S5000x128) hz, View.ld_unit_zero (S := S128x128) hz, View.ld_unit_zero (S := S5000x1) hz]
  obtain ⟨-, -, -, -, -, -, e6, e7⟩ := blocks0 t
  funext j
  obtain ⟨p, q, rfl⟩ : ∃ (p : Fin 5000) (q : Fin 128), j = ix2 p q := ⟨j 0, j 1, eq_ix2 j⟩
  have hi0 : ((((cfg0.win 3).blk t).view.emb (ix2 p q)) 0).val = t.val * 5000 + p.val := by
    show win0_3.index t (0 : Fin 2) * 5000 + 1 * p.val = _; omega
  have hi1 : ((((cfg0.win 3).blk t).view.emb (ix2 p q)) 1).val = q.val := by
    show win0_3.index t (1 : Fin 2) * 128 + 1 * q.val = _; omega
  exact pay0_block (Gen.iblk0 V c 0 t) (Gen.iblk0 V c 1 t) (Gen.iblk0 V c 2 t)
    (V c (Pipeline.arrRef spec0 0)) (V c (Pipeline.arrRef spec0 1)) (V c (Pipeline.arrRef spec0 2))
    p q (((cfg0.win 3).blk t).view.emb (ix2 p q))
    (fun k => rows0_apply V c t p k _ hi0 rfl)
    (fun k => weights0_apply V c t k q _ rfl hi1)
    (scale0_apply V c t p _ hi0)

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Row `r` of the output is written back by point `r / 5000`: the ten row blocks tile the array. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from Gen.N_0]; omega
  obtain ⟨-, -, -, -, -, -, e6, e7⟩ := blocks0 ⟨(i 0).val / 5000, ht⟩
  refine ⟨⟨(i 0).val / 5000, ht⟩, Gen.flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e7]; omega

/-- THE OUTPUT ARRAY of region 0 after its ten points: `layer1` of the arrays the region found. -/
theorem region0_final (c : Dev nD) :
    (Gen.dat0 (F := Ideal) V c).arrAt 3 cfg0.N
      = layer1 (V c (Pipeline.arrRef spec0 0)) (V c (Pipeline.arrRef spec0 1)) (V c (Pipeline.arrRef spec0 2)) :=
  (Gen.dat0 (F := Ideal) V c).arrAt_eq_of_cover 3 _ (fun t _ => flushed0_eq V c t) cover0

end Region0

/-! ## Region 1: `(max (A * Dc + B) 0 · Wp) * Dc` -/

/-- The stored block at `(p, q)`: row `p` of the loaded rows, scaled by the row's factor, shifted by the bias row and
    clamped below at zero, against column `q` of the weights; then the row's factor once more. -/
theorem pay1_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    Gen.k1_pay1 (F := Ideal) x0 x1 x2 x3 x4 (ix2 p q)
      = (∑ k : Fin 128, max (x0 (ix2 p k) * x1 (ix2 p 0) + x2 (ix2 0 k)) 0 * x3 (ix2 k q)) * x4 (ix2 p 0) := by
  unfold Gen.k1_pay1
  simp only [shapeCast_self]
  rw [mulf_apply, matmul_zero_apply, broadcastTo_a1_ab_apply]
  refine congrArg (· * x4 (ix2 p 0)) (Finset.sum_congr rfl fun k _ => ?_)
  rw [truncf_apply, truncf_apply, maximumf_apply, addf_apply, mulf_apply, broadcastTo_a1_ab_apply,
    broadcastTo_1b_ab_apply, broadcast_apply]
  have hc : (FloatOps.ofBits (F := Ideal) .f32 0x00000000#32) = (0 : EReal) := Ideal.ofBits_zero_f32
  rw [hc]

section Region1
variable (V : (c : Dev nD) → (b : Ref sig .tc) → Buf (Elt Ideal) ((c : Thread nD τ).loc b))

/-- Row `r` of the output: row `r` of `A` scaled by the row's `Dc`, shifted by the bias row `B` and clamped below at zero,
    against the columns of `Wp`; each entry scaled by the row's `Dc` again. -/
def layer2 (A : S50000x128.Idx → EReal) (Dc : S50000x1.Idx → EReal) (B : S1x128.Idx → EReal) (Wp : S128x128.Idx → EReal) : S50000x128.Idx → EReal :=
  fun i => (∑ k : Fin 128, max (A (ix2 (i 0) k) * Dc (ix2 (i 0) 0) + B (ix2 0 k)) 0 * Wp (ix2 k (i 1))) * Dc (ix2 (i 0) 0)

/-- Which buffer each window of region 1 walks. -/
theorem arr1_0 : Pipeline.arrRef spec1 0 = main_v26 := rfl
theorem arr1_1 : Pipeline.arrRef spec1 1 = main_v15 := rfl
theorem arr1_2 : Pipeline.arrRef spec1 2 = main_v28 := rfl
theorem arr1_3 : Pipeline.arrRef spec1 3 = main_v27 := rfl
theorem arr1_4 : Pipeline.arrRef spec1 4 = main_v29 := rfl

/-- The stored block at `(p, q)` is `layer2` at any array index `i` whose row the loaded blocks' row `p` is and whose
    column is `q`. -/
theorem pay1_block (x0 : Vec Ideal S5000x128 .f32) (x1 : Vec Ideal S5000x1 .f32) (x2 : Vec Ideal S1x128 .f32) (x3 : Vec Ideal S128x128 .f32)
    (A : S50000x128.Idx → EReal) (Dc : S50000x1.Idx → EReal) (B : S1x128.Idx → EReal) (Wp : S128x128.Idx → EReal)
    (p : Fin 5000) (q : Fin 128) (i : S50000x128.Idx)
    (h0 : ∀ k : Fin 128, x0 (ix2 p k) = A (ix2 (i 0) k))
    (h1 : x1 (ix2 p 0) = Dc (ix2 (i 0) 0))
    (h2 : ∀ k : Fin 128, x2 (ix2 0 k) = B (ix2 0 k))
    (h3 : ∀ k : Fin 128, x3 (ix2 k q) = Wp (ix2 k (i 1))) :
    Gen.k1_pay1 (F := Ideal) x0 x1 x2 x3 x1 (ix2 p q) = layer2 A Dc B Wp i := by
  rw [pay1_apply, h1]
  show _ = (∑ k : Fin 128, max (A (ix2 (i 0) k) * Dc (ix2 (i 0) 0) + B (ix2 0 k)) 0 * Wp (ix2 k (i 1))) * Dc (ix2 (i 0) 0)
  refine congrArg (· * Dc (ix2 (i 0) 0)) (Finset.sum_congr rfl fun k _ => ?_)
  rw [h0 k, h2 k, h3 k]

/-- The block numbers at point `t`: the row-blocked windows sit at block row `t`, block column 0; the bias row's and the
    weights' one block is the whole array. -/
theorem blocks1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry `(p, k)` of the rows loaded at point `t` is entry `(5000 t + p, k)` of `A`. -/
theorem rows1_apply (c : Dev nD) (t : Fin cfg1.N) (p : Fin 5000) (k : Fin 128) (i : S50000x128.Idx)
    (hi0 : (i 0).val = t.val * 5000 + p.val) (hi1 : (i 1).val = k.val) :
    (Gen.iblk1 V c 0 t : Vec Ideal S5000x128 .f32) (ix2 p k) = (V c (Pipeline.arrRef spec1 0) : S50000x128.Idx → EReal) i := by
  obtain ⟨e0, e1, -⟩ := blocks1 t
  show (V c (Pipeline.arrRef spec1 0) : S50000x128.Idx → EReal) (((cfg1.win 0).blk t).view.emb (ix2 p k)) = _
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- Entry `p` of the scales loaded at point `t` is entry `5000 t + p` of `Dc`. -/
theorem scale1_apply (c : Dev nD) (t : Fin cfg1.N) (p : Fin 5000) (i : S50000x1.Idx)
    (hi0 : (i 0).val = t.val * 5000 + p.val) :
    (Gen.iblk1 V c 1 t : Vec Ideal S5000x1 .f32) (ix2 p 0) = (V c (Pipeline.arrRef spec1 1) : S50000x1.Idx → EReal) i := by
  obtain ⟨-, -, e2, e3, -⟩ := blocks1 t
  show (V c (Pipeline.arrRef spec1 1) : S50000x1.Idx → EReal) (((cfg1.win 1).blk t).view.emb (ix2 p 0)) = _
  refine congrArg _ (funext fun a => Fin.ext ?_)
  match a with
  | ⟨0, _⟩ => show win1_1.index t (0 : Fin 2) * 5000 + 1 * p.val = (i 0).val; omega
  | ⟨1, _⟩ =>
    show win1_1.index t (1 : Fin 2) * 1 + 1 * (0 : Fin 1).val = (i 1).val
    have h1 : (i 1).val < 1 := (i 1).isLt
    have h0 : ((0 : Fin 1) : Nat) = 0 := rfl
    omega

/-- The bias row's block is the whole one-row array at every point. -/
theorem bias1_apply (c : Dev nD) (t : Fin cfg1.N) (k : Fin 128) :
    (Gen.iblk1 V c 2 t : Vec Ideal S1x128 .f32) (ix2 0 k) = (V c (Pipeline.arrRef spec1 2) : S1x128.Idx → EReal) (ix2 0 k) := by
  obtain ⟨-, -, -, -, e4, e5, -⟩ := blocks1 t
  show (V c (Pipeline.arrRef spec1 2) : S1x128.Idx → EReal) (((cfg1.win 2).blk t).view.emb (ix2 0 k)) = _
  refine congrArg _ (funext fun a => Fin.ext ?_)
  match a with
  | ⟨0, _⟩ =>
    show win1_2.index t (0 : Fin 2) * 1 + 1 * (0 : Fin 1).val = (0 : Fin 1).val
    omega
  | ⟨1, _⟩ => show win1_2.index t (1 : Fin 2) * 128 + 1 * k.val = k.val; omega

/-- The weights' block is the whole array at every point. -/
theorem weights1_apply (c : Dev nD) (t : Fin cfg1.N) (k : Fin 128) (q : Fin 128) (i : S128x128.Idx)
    (hi0 : (i 0).val = k.val) (hi1 : (i 1).val = q.val) :
    (Gen.iblk1 V c 3 t : Vec Ideal S128x128 .f32) (ix2 k q) = (V c (Pipeline.arrRef spec1 3) : S128x128.Idx → EReal) i := by
  obtain ⟨-, -, -, -, -, -, e6, e7, -⟩ := blocks1 t
  show (V c (Pipeline.arrRef spec1 3) : S128x128.Idx → EReal) (((cfg1.win 3).blk t).view.emb (ix2 k q)) = _
  refine congrArg _ (funext fun a => Fin.ext ?_)
  match a with
  | ⟨0, _⟩ => show win1_3.index t (0 : Fin 2) * 128 + 1 * k.val = (i 0).val; omega
  | ⟨1, _⟩ => show win1_3.index t (1 : Fin 2) * 128 + 1 * q.val = (i 1).val; omega

/-- WHAT POINT `t` WRITES BACK is block `t` of `layer2` of the arrays as the region finds them. -/
theorem flushed1_eq (c : Dev nD) (t : Fin cfg1.N) :
    (Gen.dat1 (F := Ideal) V c).flushed 4 t = ((cfg1.win 4).blk t).view.read (Elt Ideal)
      (layer2 (V c (Pipeline.arrRef spec1 0)) (V c (Pipeline.arrRef spec1 1)) (V c (Pipeline.arrRef spec1 2)) (V c (Pipeline.arrRef spec1 3))) := by
  show (cfg1.win 4).cut (grid1.coords t) ((Gen.dat1 V c).after 4 t) = _
  rw [Gen.after1_4]
  unfold Gen.out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, e8, e9⟩ := blocks1 t
  funext j
  obtain ⟨p, q, rfl⟩ : ∃ (p : Fin 5000) (q : Fin 128), j = ix2 p q := ⟨j 0, j 1, eq_ix2 j⟩
  have hi0 : ((((cfg1.win 4).blk t).view.emb (ix2 p q)) 0).val = t.val * 5000 + p.val := by
    show win1_4.index t (0 : Fin 2) * 5000 + 1 * p.val = _; omega
  have hi1 : ((((cfg1.win 4).blk t).view.emb (ix2 p q)) 1).val = q.val := by
    show win1_4.index t (1 : Fin 2) * 128 + 1 * q.val = _; omega
  exact pay1_block (Gen.iblk1 V c 0 t) (Gen.iblk1 V c 1 t) (Gen.iblk1 V c 2 t) (Gen.iblk1 V c 3 t)
    (V c (Pipeline.arrRef spec1 0)) (V c (Pipeline.arrRef spec1 1)) (V c (Pipeline.arrRef spec1 2)) (V c (Pipeline.arrRef spec1 3))
    p q (((cfg1.win 4).blk t).view.emb (ix2 p q))
    (fun k => rows1_apply V c t p k _ hi0 rfl)
    (scale1_apply V c t p _ hi0)
    (fun k => bias1_apply V c t k)
    (fun k => weights1_apply V c t k q _ rfl hi1)

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- Row `r` of the output is written back by point `r / 5000`: the ten row blocks tile the array. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := by rw [show cfg1.N = 10 from Gen.N_1]; omega
  obtain ⟨-, -, -, -, -, -, -, -, e8, e9⟩ := blocks1 ⟨(i 0).val / 5000, ht⟩
  refine ⟨⟨(i 0).val / 5000, ht⟩, Gen.flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e9]; omega

/-- THE OUTPUT ARRAY of region 1 after its ten points: `layer2` of the arrays the region found. -/
theorem region1_final (c : Dev nD) :
    (Gen.dat1 (F := Ideal) V c).arrAt 4 cfg1.N
      = layer2 (V c (Pipeline.arrRef spec1 0)) (V c (Pipeline.arrRef spec1 1)) (V c (Pipeline.arrRef spec1 2)) (V c (Pipeline.arrRef spec1 3)) :=
  (Gen.dat1 (F := Ideal) V c).arrAt_eq_of_cover 4 _ (fun t _ => flushed1_eq V c t) cover1

end Region1

end Cert.KernelIdeal.RegionValues

end
-- ==== Proof.KernelValue.lean ====
/-
  The idealized kernel program's result array as ONE function of its six arguments: the boundary values of the host
  stretches with the two regions' closed forms put in. With d the node scale as a column, T1 = rows of X·W1 scaled by
  d, agg1 = T1's rows gathered along the edges' sources and summed per target node, T2 = rows of
  max(agg1·d + b1, 0)·W2pad scaled by d: the result is (the first 40 columns of T2, gathered and summed the same
  way)·d + b2.
-/
import proofs.«152939_j48919677501959_2_alg».proof.Proof.KernelHost
import proofs.«152939_j48919677501959_2_alg».proof.Proof.RegionValues

set_option maxRecDepth 16384

noncomputable section

namespace Cert.KernelIdeal.Host

open Cert.KernelIdeal Cert.KernelIdeal.Gen Cert.KernelIdeal.RegionValues
open Idealize.ShloMosaic Idealize.ShloMosaic.TcCoe Idealize.SL.Sem Idealize.ShloMosaic.StableHlo
open Cert.ReferenceIdeal.ReadP (val_main_v3 val_main_v6 val_main_v14 val_main_v36 val_main_v41 val_main_v42 val_main_v54 val_main_v59 val_main_v60 val_main_v63)

variable (m : (ℓ : Loc nD τ sig) → Buf (Elt Ideal) ℓ) (ρ : Dev nD → PrngReg) (c : Dev nD)

set_option maxHeartbeats 4000000 in
/-- The result array as a function of the arguments. -/
theorem result_pure : W9 (F := Ideal) m ρ c (Proc.devRef .tc main_v45)
    = addf (F := Ideal) (φ := .f32) (mulf (F := Ideal) (φ := .f32)
        (Host.scatterAdd (F := Ideal) (φ := .f32) scatter_S50000x40_S850000x1_S850000x40_1_0_0_1 (val_main_v59 (F := Ideal))
          (val_main_v60 (F := Ideal) (m ((c : Thread nD τ).loc main_arg1)))
          (Host.gather gather_S50000x40_S850000x1_S850000x40_1_0_n_n_0_1_140
            (extractStridedSlice S50000x40 ![0, 0]
              (layer2
                (Host.scatterAdd (F := Ideal) (φ := .f32) scatter_S50000x128_S850000x1_S850000x128_1_0_0_1 (val_main_v41 (F := Ideal))
                  (val_main_v42 (F := Ideal) (m ((c : Thread nD τ).loc main_arg1)))
                  (Host.gather gather_S50000x128_S850000x1_S850000x128_1_0_n_n_0_1_1128
                    (layer1 (m ((c : Thread nD τ).loc main_arg0)) (m ((c : Thread nD τ).loc main_arg2))
                      (shapeCast S50000x1 (val_main_v14 (F := Ideal) (m ((c : Thread nD τ).loc main_arg1))) shapeCasts_S50000_S50000x1))
                    (val_main_v36 (F := Ideal) (m ((c : Thread nD τ).loc main_arg1)))))
                (shapeCast S50000x1 (val_main_v14 (F := Ideal) (m ((c : Thread nD τ).loc main_arg1))) shapeCasts_S50000_S50000x1)
                (shapeCast S1x128 (m ((c : Thread nD τ).loc main_arg3)) shapeCasts_S128_S1x128)
                (pad S128x128 ![0, 0] ![0, 88] ![0, 0] (m ((c : Thread nD τ).loc main_arg4)) (sitofp (F := Ideal) .f32 (constantI S_ 32 0#32)) pads_S128x40_S128x128_000_0880 h_S_))
              slices_S50000x128_S50000x40_0_0)
            (val_main_v54 (F := Ideal) (m ((c : Thread nD τ).loc main_arg1)))))
        (broadcastInDim S50000x40 ![0, 1] bcast_S50000x1_S50000x40_0_1
          (shapeCast S50000x1 (val_main_v14 (F := Ideal) (m ((c : Thread nD τ).loc main_arg1))) shapeCasts_S50000_S50000x1)))
      (val_main_v63 (F := Ideal) (m ((c : Thread nD τ).loc main_arg5))) := by
  have h1 : (dat1 (V7 m ρ) c).arrAt 4 cfg1.N
      = layer2 (W7 m ρ c (Proc.devRef .tc main_v26)) (W7 m ρ c (Proc.devRef .tc main_v15)) (W7 m ρ c (Proc.devRef .tc main_v28))
          (W7 m ρ c (Proc.devRef .tc main_v27)) := region1_final (V7 m ρ) c
  have h0 : (dat0 (V3 m ρ) c).arrAt 3 cfg0.N
      = layer1 (W3 m ρ c (Proc.devRef .tc main_arg0)) (W3 m ρ c (Proc.devRef .tc main_arg2)) (W3 m ρ c (Proc.devRef .tc main_v15)) :=
    region0_final (V3 m ρ) c
  rw [result9, h1, agg7, scale7, scale3, brow7, wpad7, h0, x3, w13, scale3]

end Cert.KernelIdeal.Host

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.RefLayers.lean ====
/-
  Facts about the reference's graph-convolution layers that do not depend on the features.

  The node scale d = where(deg > 0, deg^(-1/2), 0) is a NONNEGATIVE REAL at every node, whatever the edge list: the
  in-degree is zero plus a sum of ones over the edges landing on the node, a nonnegative real n; where n > 0 the
  comparison picks (sqrt n)^(-1), a nonnegative real, and where n = 0 it picks 0. This is what lets d pass through a
  sum of extended reals. Both layers' sums start from zero, and the wrap of negative indices keeps a target that is
  already a node.
-/
import proofs.«152939_j48919677501959_2_alg».proof.Proof.RefRead
import proofs.«152939_j48919677501959_2_alg».proof.Proof.LibSegmentSum
import Idealize.ShloMosaic.PureOps.Ideal.Laws
import Idealize.ShloMosaic.Lib.ValueIdx

set_option maxRecDepth 16384

noncomputable section

namespace Cert.ReferenceIdeal.Layers

open Cert.ReferenceIdeal Cert.ReferenceIdeal.ReadP Idealize.ShloMosaic Idealize.ShloMosaic.ValueIdx
open Idealize.ShloMosaic.SegmentSum

/-! ## The node scale is a nonnegative real -/

/-- The word of 1.0 is the real one. -/
theorem one_word : Ideal.ofBits .f32 0x3F800000#32 = ((1 : ℝ) : EReal) := by
  simp [Ideal.ofBits, Ideal.ieee, -EReal.coe_mul]; norm_num

/-- A sum of one real over a finite set is a real. -/
theorem sum_const_real {α : Type} (S : Finset α) (r : ℝ) : ∑ _j ∈ S, (r : EReal) = ((S.card * r : ℝ) : EReal) := by
  classical
  induction S using Finset.induction_on with
  | empty => simp
  | insert a S ha ih =>
    rw [Finset.sum_insert ha, ih, Finset.card_insert_of_notMem ha, ← EReal.coe_add]
    congr 1; push_cast; ring

/-- An accumulating scatter of ones into zeros gives a nonnegative real at every element: zero plus one per update
    that lands there. Stated over any shapes, so nothing about a program's sizes is ever computed. -/
theorem scatterAdd_ones_real {s si su : Shape} (d : ScatterDims s si su) {w : Nat}
    (x : FVec Ideal s .f32) (idx : IVec si w) (upd : FVec Ideal su .f32)
    (hx : x = fun _ => (0 : EReal)) (hu : upd = fun _ => ((1 : ℝ) : EReal)) (v : s.Idx) :
    ∃ n : ℝ, 0 ≤ n ∧ Host.scatterAdd d x idx upd v = (n : EReal) := by
  subst hx hu
  show ∃ n : ℝ, 0 ≤ n ∧
    Ideal.hostScatterAdd d (fun _ => (0 : EReal)) idx (fun _ => ((1 : ℝ) : EReal)) v = (n : EReal)
  unfold Ideal.hostScatterAdd
  rw [zero_add, sum_const_real]
  exact ⟨_, mul_nonneg (Nat.cast_nonneg _) zero_le_one, rfl⟩

/-- The in-degree of a node is a nonnegative real. -/
theorem deg_real (x1 : (⟨S2x800000, .i32⟩ : BufTy).Contents (Elt Ideal)) (v : S50000.Idx) :
    ∃ n : ℝ, 0 ≤ n ∧ val_main_v10 (F := Ideal) x1 v = (n : EReal) := by
  have h7 : val_main_v7 (F := Ideal) = fun _ => ((1 : ℝ) : EReal) := by
    funext j
    rw [val_main_v7_apply, val_main_cst_apply, Ideal.ofBits_def, one_word]
  have h8 : val_main_v8 (F := Ideal) = fun _ => (0 : EReal) := by
    funext i
    rw [val_main_v8_apply, val_main_cst_0_apply, Ideal.ofBits_def, Ideal.ofBits_zero_f32]
  unfold val_main_v10
  exact scatterAdd_ones_real scatter_S50000_S850000x1_S850000_n_0_0_1 _ _ _ h8 h7 v

/-- The scale of a node is a nonnegative real. -/
theorem scale_real (x1 : (⟨S2x800000, .i32⟩ : BufTy).Contents (Elt Ideal)) (v : S50000.Idx) :
    ∃ r : ℝ, 0 ≤ r ∧ val_main_v14 (F := Ideal) x1 v = (r : EReal) := by
  obtain ⟨n, hn, en⟩ := deg_real x1 v
  rw [val_main_v14_apply, val_main_v12_apply, val_main_v13_apply, val_main_call0_v1_apply, val_main_call0_v0_apply,
    val_main_cst_2_apply, val_main_v11_apply, val_main_cst_1_apply, en, Ideal.cmpf_def, Ideal.hostUnary_rsqrt_def,
    Ideal.ofBits_def, Ideal.ofBits_zero_f32]
  by_cases h : (0 : ℝ) < n
  · have hb : Ideal.cmp .ogt (n : EReal) 0 = 1#1 := by
      simp [Ideal.cmp, EReal.coe_pos.mpr h]
    rw [hb, select_one]
    refine ⟨(Real.sqrt n)⁻¹, inv_nonneg.mpr (Real.sqrt_nonneg n), ?_⟩
    show (if n < 0 then (⊥ : EReal) else if n = 0 then ⊤ else ((Real.sqrt n)⁻¹ : ℝ)) = _
    rw [if_neg (not_lt.mpr hn), if_neg (ne_of_gt h)]
  · have hb : Ideal.cmp .ogt (n : EReal) 0 = 0#1 := by
      have : ¬ (0 : EReal) < (n : EReal) := fun h' => h (EReal.coe_pos.mp h')
      simp [Ideal.cmp, this]
    rw [hb, select_zero]
    exact ⟨0, le_refl _, by simp⟩

/-! ## The scatters start from zero; the index arrays -/

/-- The first layer's scatter accumulates into zeros. -/
theorem zeros128 : val_main_v41 (F := Ideal) = fun _ => 0 := by
  funext i
  rw [val_main_v41_apply, val_main_cst_8_apply, Ideal.ofBits_def, Ideal.ofBits_zero_f32]

/-- The second layer's scatter accumulates into zeros. -/
theorem zeros40 : val_main_v59 (F := Ideal) = fun _ => 0 := by
  funext i
  rw [val_main_v59_apply, val_main_cst_11_apply, Ideal.ofBits_def, Ideal.ofBits_zero_f32]

/-- The wrap of a negative index (add the node count where the word is negative) keeps a target that is already a
    node: a word whose signed value is at least zero is not below zero, so the select keeps it. -/
theorem wrap_keeps (x1 : (⟨S2x800000, .i32⟩ : BufTy).Contents (Elt Ideal)) (e : S850000x1.Idx)
    (h0 : 0 ≤ (val_main_v42 (F := Ideal) x1 e).toInt) (h1 : (val_main_v42 (F := Ideal) x1 e).toInt < (50000 : Int)) :
    val_main_v27 (F := Ideal) x1 e = val_main_v42 (F := Ideal) x1 e := by
  rw [val_main_v42_apply] at h0 ⊢
  rw [val_main_v27_apply, val_main_v26_apply, val_main_v23_apply, val_main_v22_apply, val_main_c_4_apply]
  have hk : idx_main_v27 e = idx_main_v42 e := rfl
  rw [hk]
  have hc : IntOp.cmpi .slt (val_main_v6 (F := Ideal) x1 (idx_main_v42 e)) 0#32 = 0#1 := by
    unfold IntOp.cmpi
    have hs : ¬ ((val_main_v6 (F := Ideal) x1 (idx_main_v42 e)).slt 0#32 = true) := fun hs => by
      have := BitVec.slt_iff_toInt_lt.mp hs
      simp at this
      omega
    simp [hs]
  rw [hc, select_zero]

/-- The three broadcasts of the raw targets are one array … -/
theorem v60_eq_v42 (x1 : (⟨S2x800000, .i32⟩ : BufTy).Contents (Elt Ideal)) :
    val_main_v60 (F := Ideal) x1 = val_main_v42 (F := Ideal) x1 := rfl
theorem v9_eq_v42 (x1 : (⟨S2x800000, .i32⟩ : BufTy).Contents (Elt Ideal)) :
    val_main_v9 (F := Ideal) x1 = val_main_v42 (F := Ideal) x1 := rfl
/-- … and so are the three broadcasts of the wrapped sources. -/
theorem v20_eq_v36 (x1 : (⟨S2x800000, .i32⟩ : BufTy).Contents (Elt Ideal)) :
    val_main_v20 (F := Ideal) x1 = val_main_v36 (F := Ideal) x1 := rfl
theorem v54_eq_v36 (x1 : (⟨S2x800000, .i32⟩ : BufTy).Contents (Elt Ideal)) :
    val_main_v54 (F := Ideal) x1 = val_main_v36 (F := Ideal) x1 := rfl

end Cert.ReferenceIdeal.Layers

end
-- ==== Proof.DimsRecords.lean ====
/-
  The dimension numbers the two programs print for their gathers and segment sums are the library's row-gather and
  row-scatter numbers at N = 50000 nodes, E = 850000 edges and C = 128 or 40 columns; a gather or a segment sum depends
  on its dimension numbers only through their fields, so each printed operation is the library's.
-/
import proofs.«152939_j48919677501959_2_alg».proof.Proof.Gen.KernelIdeal
import proofs.«152939_j48919677501959_2_alg».proof.Proof.Gen.ReferenceIdeal
import proofs.«152939_j48919677501959_2_alg».proof.Proof.LibSegmentSum

set_option maxRecDepth 16384

noncomputable section

namespace Cert.Dims

open Idealize.ShloMosaic Idealize.ShloMosaic.SegmentSum

/-- A segment sum at equal dimension numbers, read at an element. -/
theorem scatterAdd_dims {s si u : Shape} {w : Nat} (d d' : ScatterDims s si u) (h : d = d') (x : s.Idx → EReal) (idx : IVec si w)
    (upd : u.Idx → EReal) (i : s.Idx) :
    Host.scatterAdd (F := Ideal) (φ := .f32) d x idx upd i = Ideal.hostScatterAdd d' x idx upd i := by
  subst h; rfl

/-- A gather at equal dimension numbers. -/
theorem gather_dims {s si t : Shape} {α : Type} {w : Nat} (d d' : GatherDims s si t) (h : d = d') (x : s.Idx → α) (idx : IVec si w) :
    Host.gather d x idx = Host.gather d' x idx := by
  subst h; rfl

theorem kScatter128 : Cert.KernelIdeal.scatter_S50000x128_S850000x1_S850000x128_1_0_0_1
    = rowScatterDims 50000 850000 128 Cert.ReferenceIdeal.scatter_S50000x128_S850000x1_S850000x128_1_0_0_1.wf := rfl
theorem kGather128 : Cert.KernelIdeal.gather_S50000x128_S850000x1_S850000x128_1_0_n_n_0_1_1128
    = rowGatherDims 50000 850000 128 Cert.ReferenceIdeal.gather_S50000x128_S850000x1_S850000x128_1_0_n_n_0_1_1128.wf := rfl
theorem kScatter40 : Cert.KernelIdeal.scatter_S50000x40_S850000x1_S850000x40_1_0_0_1
    = rowScatterDims 50000 850000 40 Cert.ReferenceIdeal.scatter_S50000x40_S850000x1_S850000x40_1_0_0_1.wf := rfl
theorem kGather40 : Cert.KernelIdeal.gather_S50000x40_S850000x1_S850000x40_1_0_n_n_0_1_140
    = rowGatherDims 50000 850000 40 Cert.ReferenceIdeal.gather_S50000x40_S850000x1_S850000x40_1_0_n_n_0_1_140.wf := rfl

theorem rScatter128 : Cert.ReferenceIdeal.scatter_S50000x128_S850000x1_S850000x128_1_0_0_1
    = rowScatterDims 50000 850000 128 Cert.ReferenceIdeal.scatter_S50000x128_S850000x1_S850000x128_1_0_0_1.wf := rfl
theorem rGather128 : Cert.ReferenceIdeal.gather_S50000x128_S850000x1_S850000x128_1_0_n_n_0_1_1128
    = rowGatherDims 50000 850000 128 Cert.ReferenceIdeal.gather_S50000x128_S850000x1_S850000x128_1_0_n_n_0_1_1128.wf := rfl
theorem rScatter40 : Cert.ReferenceIdeal.scatter_S50000x40_S850000x1_S850000x40_1_0_0_1
    = rowScatterDims 50000 850000 40 Cert.ReferenceIdeal.scatter_S50000x40_S850000x1_S850000x40_1_0_0_1.wf := rfl
theorem rGather40 : Cert.ReferenceIdeal.gather_S50000x40_S850000x1_S850000x40_1_0_n_n_0_1_140
    = rowGatherDims 50000 850000 40 Cert.ReferenceIdeal.gather_S50000x40_S850000x1_S850000x40_1_0_n_n_0_1_140.wf := rfl
theorem rGatherElem : Cert.ReferenceIdeal.gather_S50000_S850000x1_S850000_n_0_n_n_0_1_1
    = elemGatherDims 50000 850000 Cert.ReferenceIdeal.gather_S50000_S850000x1_S850000_n_0_n_n_0_1_1.wf := rfl

end Cert.Dims

end
-- ==== Proof.RefLayerSums.lean ====
import proofs.«152939_j48919677501959_2_alg».proof.Proof.RefRead
import proofs.«152939_j48919677501959_2_alg».proof.Proof.LibSegmentSum
import proofs.«152939_j48919677501959_2_alg».proof.Proof.DimsRecords
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem
open Idealize.ShloMosaic.ValueIdx Idealize.ShloMosaic.SegmentSum
open scoped BigOperators

namespace Cert.ReferenceIdeal.LayerSums

open Cert.ReferenceIdeal Cert.ReferenceIdeal.Gen Cert.ReferenceIdeal.ReadP

/-! # The reference's first segment sum with the target's factor taken out

The reference sums, over the edges `e` whose target is node `i`, the source's row of `x · W1` scaled by
`d (src e) * d (tgt e)`. The target's factor is `d i` on every edge of the sum and is a nonnegative real, so it leaves the
sum: the node's row is the sum of the source rows scaled by the source's factor only, times `d i`. -/

/-- The wrapped source column is computed more than once from the same operations on the same constants. -/
theorem sources_36 (x1 : (⟨S2x800000, .i32⟩ : BufTy).Contents (Elt Ideal)) :
    val_main_v20 (F := Ideal) x1 = val_main_v36 (F := Ideal) x1 := rfl

/-- Each edge's weight: the source's factor times the target's, both read off `d` at the edge's ends. -/
theorem weight_apply (x1 : (⟨S2x800000, .i32⟩ : BufTy).Contents (Elt Ideal)) (e : (⟨1, ![850000]⟩ : Shape).Idx) :
    val_main_v29 (F := Ideal) x1 e
      = Host.gather (elemGatherDims 50000 850000 gather_S50000_S850000x1_S850000_n_0_n_n_0_1_1.wf)
          (val_main_v14 (F := Ideal) x1) (val_main_v36 (F := Ideal) x1) e
        * Host.gather (elemGatherDims 50000 850000 gather_S50000_S850000x1_S850000_n_0_n_n_0_1_1.wf)
          (val_main_v14 (F := Ideal) x1) (val_main_v27 (F := Ideal) x1) e := by
  rw [val_main_v29_apply, Ideal.mulf_def]
  unfold val_main_v21 val_main_v28
  rw [sources_36, ← Cert.Dims.rGatherElem]

/-- The first layer's messages: the source's row of `x · W1` times the edge's weight. -/
theorem messages1 (x0 : (⟨S50000x128, .f32⟩ : BufTy).Contents (Elt Ideal)) (x1 : (⟨S2x800000, .i32⟩ : BufTy).Contents (Elt Ideal))
    (x2 : (⟨S128x128, .f32⟩ : BufTy).Contents (Elt Ideal)) :
    val_main_v40 (F := Ideal) x0 x1 x2 = fun j =>
      Host.gather (rowGatherDims 50000 850000 128 gather_S50000x128_S850000x1_S850000x128_1_0_n_n_0_1_1128.wf)
          (val_main_v30 (F := Ideal) x0 x2) (val_main_v36 (F := Ideal) x1) j
        * (Host.gather (elemGatherDims 50000 850000 gather_S50000_S850000x1_S850000_n_0_n_n_0_1_1.wf)
              (val_main_v14 (F := Ideal) x1) (val_main_v36 (F := Ideal) x1) (ix1 (j 0))
            * Host.gather (elemGatherDims 50000 850000 gather_S50000_S850000x1_S850000_n_0_n_n_0_1_1.wf)
              (val_main_v14 (F := Ideal) x1) (val_main_v27 (F := Ideal) x1) (ix1 (j 0))) := by
  funext j
  have hi : idx_main_v38 (idx_main_v39 j) = (ix1 (j 0) : (⟨1, ![850000]⟩ : Shape).Idx) :=
    funext fun a => by match a with | ⟨0, _⟩ => rfl
  rw [val_main_v40_apply, Ideal.mulf_def, val_main_v39_apply, val_main_v38_apply, hi, weight_apply]
  unfold val_main_v37
  rw [← Cert.Dims.rGather128]

set_option maxHeartbeats 1000000 in
/-- THE FIRST LAYER'S SEGMENT SUM with the target's factor outside. -/
theorem layer1_sum (x0 : (⟨S50000x128, .f32⟩ : BufTy).Contents (Elt Ideal)) (x1 : (⟨S2x800000, .i32⟩ : BufTy).Contents (Elt Ideal))
    (x2 : (⟨S128x128, .f32⟩ : BufTy).Contents (Elt Ideal))
    (hD : ∀ v, ∃ r : ℝ, 0 ≤ r ∧ val_main_v14 (F := Ideal) x1 v = (r : EReal))
    (hwrap : ∀ e, 0 ≤ (val_main_v42 (F := Ideal) x1 e).toInt → (val_main_v42 (F := Ideal) x1 e).toInt < (50000 : Int) →
      val_main_v27 (F := Ideal) x1 e = val_main_v42 (F := Ideal) x1 e)
    (hz : val_main_v41 (F := Ideal) = fun _ => 0) (p : S50000x128.Idx) :
    val_main_v43 (F := Ideal) x0 x1 x2 p
      = Ideal.hostScatterAdd (rowScatterDims 50000 850000 128 scatter_S50000x128_S850000x1_S850000x128_1_0_0_1.wf) (fun _ => 0)
          (val_main_v42 (F := Ideal) x1)
          (Host.gather (rowGatherDims 50000 850000 128 gather_S50000x128_S850000x1_S850000x128_1_0_n_n_0_1_1128.wf)
            (fun v => val_main_v30 (F := Ideal) x0 x2 v * val_main_v14 (F := Ideal) x1 (ix1 (v 0)))
            (val_main_v36 (F := Ideal) x1)) p
        * val_main_v14 (F := Ideal) x1 (ix1 (p 0)) := by
  unfold val_main_v43
  rw [Cert.Dims.scatterAdd_dims _ _ Cert.Dims.rScatter128, hz, messages1]
  exact scatter_gather_scale (by omega) gather_S50000x128_S850000x1_S850000x128_1_0_n_n_0_1_1128.wf
    gather_S50000_S850000x1_S850000_n_0_n_n_0_1_1.wf scatter_S50000x128_S850000x1_S850000x128_1_0_0_1.wf
    (val_main_v30 (F := Ideal) x0 x2) (val_main_v14 (F := Ideal) x1) hD (val_main_v36 (F := Ideal) x1)
    (val_main_v27 (F := Ideal) x1) (val_main_v42 (F := Ideal) x1) hwrap p

end Cert.ReferenceIdeal.LayerSums

end
-- ==== Proof.RefLayerSum2.lean ====
/-
  The reference's second graph-convolution layer with the target's scale taken out of each node's sum: a node's sum
  of its edges' messages (h·W)[row e] · (d[row e] · d[col e]) is d[node] times the sum of (h·W)[row e] · d[row e],
  because an edge that lands on the node has that node as its target and the scale is a nonnegative real. The facts
  about the scale, the wrap of indices and the zero start come in as hypotheses.
-/
import proofs.«152939_j48919677501959_2_alg».proof.Proof.RefRead
import proofs.«152939_j48919677501959_2_alg».proof.Proof.LibSegmentSum
import proofs.«152939_j48919677501959_2_alg».proof.Proof.DimsRecords
import Idealize.ShloMosaic.PureOps.Ideal.Laws
import Idealize.ShloMosaic.Lib.ValueIdx

set_option maxRecDepth 16384

noncomputable section

namespace Cert.ReferenceIdeal.LayerSums

open Cert.ReferenceIdeal Cert.ReferenceIdeal.ReadP Idealize.ShloMosaic Idealize.ShloMosaic.ValueIdx
open Idealize.ShloMosaic.SegmentSum

/-- The two broadcasts that carry an edge's factor to its row of 40 messages read it at the edge. -/
theorem idx56_57 (j : S850000x40.Idx) : idx_main_v56 (idx_main_v57 j) = ix1 (j 0) := by
  funext a; refine Fin.ext ?_
  match a with
  | ⟨0, _⟩ => rfl

/-- The source indices the edge factors are gathered at are the ones the second layer's rows are gathered at: the
    same wrap of the same raw sources. -/
theorem v20_eq_v54 (x1 : (⟨S2x800000, .i32⟩ : BufTy).Contents (Elt Ideal)) :
    val_main_v20 (F := Ideal) x1 = val_main_v54 (F := Ideal) x1 := rfl

/-- The second layer's updates, one edge's row at a time: the gathered row of h·W times the product of the source's
    and the target's scale. -/
theorem upd2_eq (x0 : (⟨S50000x128, .f32⟩ : BufTy).Contents (Elt Ideal))
    (x1 : (⟨S2x800000, .i32⟩ : BufTy).Contents (Elt Ideal)) (x2 : (⟨S128x128, .f32⟩ : BufTy).Contents (Elt Ideal))
    (x3 : (⟨S128, .f32⟩ : BufTy).Contents (Elt Ideal)) (x4 : (⟨S128x40, .f32⟩ : BufTy).Contents (Elt Ideal)) :
    val_main_v58 (F := Ideal) x0 x1 x2 x3 x4 = fun j =>
      Host.gather (rowGatherDims 50000 850000 40 gather_S50000x40_S850000x1_S850000x40_1_0_n_n_0_1_140.wf)
          (val_main_v48 (F := Ideal) x0 x1 x2 x3 x4) (val_main_v54 (F := Ideal) x1) j *
        (Host.gather (elemGatherDims 50000 850000 gather_S50000_S850000x1_S850000_n_0_n_n_0_1_1.wf)
            (val_main_v14 (F := Ideal) x1) (val_main_v54 (F := Ideal) x1) (ix1 (j 0)) *
          Host.gather (elemGatherDims 50000 850000 gather_S50000_S850000x1_S850000_n_0_n_n_0_1_1.wf)
            (val_main_v14 (F := Ideal) x1) (val_main_v27 (F := Ideal) x1) (ix1 (j 0))) := by
  funext j
  rw [val_main_v58_apply, val_main_v57_apply, val_main_v56_apply, val_main_v29_apply, idx56_57, Ideal.mulf_def,
    Ideal.mulf_def]
  unfold val_main_v55 val_main_v21 val_main_v28
  rw [Cert.Dims.gather_dims _ _ Cert.Dims.rGather40, Cert.Dims.gather_dims _ _ Cert.Dims.rGatherElem,
    Cert.Dims.gather_dims _ _ Cert.Dims.rGatherElem, v20_eq_v54]
  rfl

/-- LAYER 2: a node's sum of its edges' messages, each scaled by its source's and its target's factor, is the node's
    factor times the sum of the messages scaled by the source's factor only. -/
theorem layer2_sum (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal))
    (hD : ∀ v, ∃ r : ℝ, 0 ≤ r ∧ val_main_v14 (F := Ideal) x1 v = (r : EReal))
    (hwrap' : ∀ e, 0 ≤ (val_main_v60 (F := Ideal) x1 e).toInt → (val_main_v60 (F := Ideal) x1 e).toInt < (50000 : Int) → val_main_v27 (F := Ideal) x1 e = val_main_v60 (F := Ideal) x1 e)
    (hz' : val_main_v59 (F := Ideal) = fun _ => 0) (i : S50000x40.Idx) :
    val_main_v61 (F := Ideal) x0 x1 x2 x3 x4 i
      = Ideal.hostScatterAdd (rowScatterDims 50000 850000 40 scatter_S50000x40_S850000x1_S850000x40_1_0_0_1.wf) (fun _ => 0) (val_main_v60 (F := Ideal) x1)
          (Host.gather (rowGatherDims 50000 850000 40 gather_S50000x40_S850000x1_S850000x40_1_0_n_n_0_1_140.wf)
            (fun v => val_main_v48 (F := Ideal) x0 x1 x2 x3 x4 v * val_main_v14 (F := Ideal) x1 (ix1 (v 0))) (val_main_v54 (F := Ideal) x1)) i
        * val_main_v14 (F := Ideal) x1 (ix1 (i 0)) := by
  unfold val_main_v61
  rw [Cert.Dims.scatterAdd_dims _ _ Cert.Dims.rScatter40, hz', upd2_eq]
  exact scatter_gather_scale (by norm_num) _ _ _ (val_main_v48 (F := Ideal) x0 x1 x2 x3 x4)
    (val_main_v14 (F := Ideal) x1) hD (val_main_v54 (F := Ideal) x1) (val_main_v27 (F := Ideal) x1)
    (val_main_v60 (F := Ideal) x1) hwrap' i

end Cert.ReferenceIdeal.LayerSums

end
-- ==== Proof.SecondProduct.lean ====
import proofs.«152939_j48919677501959_2_alg».proof.Proof.RegionValues
import proofs.«152939_j48919677501959_2_alg».proof.Proof.RefRead
import Idealize.ShloMosaic.Lib.KernelVsHost
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open scoped BigOperators

namespace Cert.Bridge.Second

open Cert.ReferenceIdeal Cert.ReferenceIdeal.ReadP

/-! # The second layer: the kept columns of the kernel's product are the reference's product, row-scaled

The kernel multiplies `max (A * d + b1) 0` by the weights padded with 88 zero columns to [128,128] and scales each row by
`d`; the host keeps the first 40 columns. The reference multiplies `max (agg + b1) 0` by the [128,40] weights. With
`A * d = agg` entry by entry, column `j < 40` of the kernel's product is the reference's product at `(r, j)` times `d r`:
inside the first 40 columns the padded weights are the weights. -/

/-- The reference's second product at `(r, j)`: row `r` of the clamped sums against column `j` of the weights. -/
theorem v48_sum (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x40, .f32⟩ : BufTy).Contents (Elt Ideal)) (v : S50000x40.Idx) :
    val_main_v48 (F := Ideal) x0 x1 x2 x3 x4 v
      = ∑ k : Fin 128, val_main_v47 (F := Ideal) x0 x1 x2 x3 (ix2 (v 0) k) * x4 (ix2 k (v 1)) := by
  rw [val_main_v48_apply]
  refine Finset.sum_congr rfl fun k _ => ?_
  have el : lidx_main_v48 v k = ix2 (v 0) k := funext fun a => by match a with | ⟨0, _⟩ => rfl | ⟨1, _⟩ => rfl
  have er : ridx_main_v48 v k = ix2 k (v 1) := funext fun a => by match a with | ⟨0, _⟩ => rfl | ⟨1, _⟩ => rfl
  exact congrArg₂ (· * ·) (congrArg (val_main_v47 (F := Ideal) x0 x1 x2 x3) el) (congrArg x4 er)

/-- Inside the first 40 columns the weights padded on the right are the weights. -/
theorem pad_cols (x4 : (⟨S128x40, .f32⟩ : BufTy).Contents (Elt Ideal)) {u : Shape} (pv : u.Idx → EReal)
    (hp : S128x40.Pads ![0, 0] ![0, 88] ![0, 0] S128x128) (hu : 0 < u.numel) (k : Fin 128) (j : Fin 40) :
    pad S128x128 ![0, 0] ![0, 88] ![0, 0] x4 pv hp hu (ix2 k (⟨j.val, by have := j.isLt; omega⟩ : Fin 128)) = x4 (ix2 k j) := by
  refine pad_apply_of_inside ![0, 0] ![0, 88] ![0, 0] x4 pv hp hu _ (ix2 k j) fun a => ?_
  match a with
  | ⟨0, _⟩ => show k.val = 0 + k.val * (0 + 1); omega
  | ⟨1, _⟩ => show j.val = 0 + j.val * (0 + 1); omega

/-- A vector of 128 entries cast to one row reads, at `(0, k)`, its entry `k`. -/
theorem row_apply (b : (⟨1, ![128]⟩ : Shape).Idx → EReal) (h : (⟨1, ![128]⟩ : Shape).ShapeCasts ⟨2, ![1, 128]⟩) (k : Fin 128) :
    shapeCast (⟨2, ![1, 128]⟩ : Shape) b h (ix2 (0 : Fin 1) k) = b (ix1 k) :=
  shapeCast_apply b h _ _ (by rw [Shape.rowMajor_val_one, Shape.rowMajor_val_two]; show k.val = 0 * 128 + k.val; omega)

/-- A vector of 50000 entries cast to one column reads, at `(r, 0)`, its entry `r`. -/
theorem col_apply (d : (⟨1, ![50000]⟩ : Shape).Idx → EReal) (h : (⟨1, ![50000]⟩ : Shape).ShapeCasts ⟨2, ![50000, 1]⟩) (r : Fin 50000) :
    shapeCast (⟨2, ![50000, 1]⟩ : Shape) d h (ix2 r (0 : Fin 1)) = d (ix1 r) :=
  shapeCast_apply d h _ _ (by rw [Shape.rowMajor_val_one, Shape.rowMajor_val_two]; show r.val = r.val * 1 + 0; omega)

/-- The clamped stage: with the scaled rows equal to the reference's segment sums, adding the bias row and clamping below
    at zero gives the reference's clamped sums. -/
theorem relu_stage (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (A : S50000x128.Idx → EReal) (Dc : (⟨2, ![50000, 1]⟩ : Shape).Idx → EReal)
    (h : (⟨1, ![128]⟩ : Shape).ShapeCasts ⟨2, ![1, 128]⟩)
    (hagg : ∀ q : S50000x128.Idx, A q * Dc (ix2 (q 0) (0 : Fin 1)) = val_main_v43 (F := Ideal) x0 x1 x2 q) (q : S50000x128.Idx) :
    max (A q * Dc (ix2 (q 0) (0 : Fin 1)) + shapeCast (⟨2, ![1, 128]⟩ : Shape) x3 h (ix2 (0 : Fin 1) (q 1))) 0
      = val_main_v47 (F := Ideal) x0 x1 x2 x3 q := by
  have hb : shapeCast (⟨2, ![1, 128]⟩ : Shape) x3 h (ix2 (0 : Fin 1) (q 1)) = val_main_v45 (F := Ideal) x3 q := by
    rw [val_main_v45_apply, val_main_v44_apply]
    refine (row_apply x3 h (q 1)).trans (congrArg x3 (funext fun a => ?_))
    match a with | ⟨0, _⟩ => rfl
  have h0 : val_main_call1_v0 (F := Ideal) q = 0 := by
    rw [val_main_call1_v0_apply, val_main_call1_cst_apply]; exact Ideal.ofBits_zero_f32
  rw [val_main_v47_apply, val_main_v46_apply, h0, ← hagg q, ← hb]
  rfl

/-- THE KEPT COLUMNS: column `j < 40` of the kernel's second-layer array is the reference's second product at `(r, j)`
    scaled by `d r`. -/
theorem kept_columns (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x40, .f32⟩ : BufTy).Contents (Elt Ideal))
    (A : S50000x128.Idx → EReal) (D : (⟨1, ![50000]⟩ : Shape).Idx → EReal)
    (hc : (⟨1, ![50000]⟩ : Shape).ShapeCasts ⟨2, ![50000, 1]⟩) (hr : (⟨1, ![128]⟩ : Shape).ShapeCasts ⟨2, ![1, 128]⟩)
    {u : Shape} (pv : u.Idx → EReal) (hp : S128x40.Pads ![0, 0] ![0, 88] ![0, 0] S128x128) (hu : 0 < u.numel)
    (hsl : S50000x128.Slices ![0, 0] S50000x40)
    (hagg : ∀ q : S50000x128.Idx,
      A q * shapeCast (⟨2, ![50000, 1]⟩ : Shape) D hc (ix2 (q 0) (0 : Fin 1)) = val_main_v43 (F := Ideal) x0 x1 x2 q)
    (v : S50000x40.Idx) :
    extractStridedSlice S50000x40 ![0, 0]
        (Cert.KernelIdeal.RegionValues.layer2 A (shapeCast (⟨2, ![50000, 1]⟩ : Shape) D hc)
          (shapeCast (⟨2, ![1, 128]⟩ : Shape) x3 hr) (pad S128x128 ![0, 0] ![0, 88] ![0, 0] x4 pv hp hu)) hsl v
      = val_main_v48 (F := Ideal) x0 x1 x2 x3 x4 v * D (ix1 (v 0)) := by
  have hv1 : (v 1).val < 128 := by have := idx2_lt1 v; omega
  refine (extractStridedSlice_apply ![0, 0] _ hsl v (ix2 (v 0) (⟨(v 1).val, hv1⟩ : Fin 128)) (fun a => by
    match a with
    | ⟨0, _⟩ => show (v 0).val = 0 + (v 0).val; omega
    | ⟨1, _⟩ => show (v 1).val = 0 + (v 1).val; omega)).trans ?_
  show (∑ k : Fin 128, max (A (ix2 (v 0) k) * shapeCast (⟨2, ![50000, 1]⟩ : Shape) D hc (ix2 (v 0) (0 : Fin 1))
        + shapeCast (⟨2, ![1, 128]⟩ : Shape) x3 hr (ix2 (0 : Fin 1) k)) 0
        * pad S128x128 ![0, 0] ![0, 88] ![0, 0] x4 pv hp hu (ix2 k (⟨(v 1).val, hv1⟩ : Fin 128)))
      * shapeCast (⟨2, ![50000, 1]⟩ : Shape) D hc (ix2 (v 0) (0 : Fin 1)) = _
  rw [v48_sum]
  refine congrArg₂ (· * ·) (Finset.sum_congr rfl fun k _ => ?_) (col_apply D hc (v 0))
  refine congrArg₂ (· * ·) ?_ (pad_cols x4 pv hp hu k (v 1))
  exact relu_stage x0 x1 x2 x3 A (shapeCast (⟨2, ![50000, 1]⟩ : Shape) D hc) hr hagg (ix2 (v 0) k)

end Cert.Bridge.Second

end
-- ==== Proof.Bridge.lean ====
/-
  The two programs compute one function. Write d for the node scale (a nonnegative real at every node), H1 = X·W1.
  The kernel's first region leaves the rows of H1 scaled by d; gathered along the edges' sources and summed per target
  node i this is agg1[i] = Σ_{e → i} H1[src e]·d[src e], and agg1[i]·d[i] is the reference's first segment sum
  Σ_{e → i} H1[src e]·(d[src e]·d[tgt e]), because an edge landing on i has target i and a nonnegative real factor
  passes through a sum of extended reals. So both programs feed the same S = max(· + b1, 0) into the second product;
  the kernel multiplies S by W2 padded with zero columns and keeps the first 40 columns, which are the columns of S·W2,
  scaled by d; the same law once more gives the reference's second segment sum, and both add b2.
-/
import proofs.«152939_j48919677501959_2_alg».proof.Proof.RegionValues
import proofs.«152939_j48919677501959_2_alg».proof.Proof.RefLayers
import proofs.«152939_j48919677501959_2_alg».proof.Proof.RefLayerSums
import proofs.«152939_j48919677501959_2_alg».proof.Proof.RefLayerSum2
import proofs.«152939_j48919677501959_2_alg».proof.Proof.SecondProduct
import proofs.«152939_j48919677501959_2_alg».proof.Proof.DimsRecords
import Idealize.ShloMosaic.Lib.KernelVsHost
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal Cert.ReferenceIdeal.ReadP
open Cert.KernelIdeal.RegionValues (layer1 layer2)
open Cert.ReferenceIdeal.Layers Cert.ReferenceIdeal.LayerSums Idealize.ShloMosaic.SegmentSum
open scoped BigOperators

/-! ## Layouts read at an index -/

/-- A vector of 50000 entries laid out as a column: entry p sits at (p, 0). -/
theorem col_apply (D : (⟨1, ![50000]⟩ : Shape).Idx → EReal) (h : (⟨1, ![50000]⟩ : Shape).ShapeCasts ⟨2, ![50000, 1]⟩) (p : Fin 50000) :
    shapeCast (⟨2, ![50000, 1]⟩ : Shape) D h (ix2 p (0 : Fin 1)) = D (ix1 p) :=
  shapeCast_apply D h (ix2 p (0 : Fin 1)) (ix1 p) (by
    rw [Shape.rowMajor_val_one, Shape.rowMajor_val_two]; show p.val = p.val * 1 + 0; omega)

/-- A vector of 128 entries laid out as a row: entry k sits at (0, k). -/
theorem row_apply (b : (⟨1, ![128]⟩ : Shape).Idx → EReal) (h : (⟨1, ![128]⟩ : Shape).ShapeCasts ⟨2, ![1, 128]⟩) (k : Fin 128) :
    shapeCast (⟨2, ![1, 128]⟩ : Shape) b h (ix2 (0 : Fin 1) k) = b (ix1 k) :=
  shapeCast_apply b h (ix2 (0 : Fin 1) k) (ix1 k) (by
    rw [Shape.rowMajor_val_one, Shape.rowMajor_val_two]; show k.val = 0 * 128 + k.val; omega)

/-! ## The first product -/

/-- The first region's output is the rows of X·W1, each scaled by its node's d. -/
theorem layer1_eq (x0 : (⟨S50000x128, .f32⟩ : BufTy).Contents (Elt Ideal)) (x2 : (⟨S128x128, .f32⟩ : BufTy).Contents (Elt Ideal))
    (D : (⟨1, ![50000]⟩ : Shape).Idx → EReal) (h : (⟨1, ![50000]⟩ : Shape).ShapeCasts ⟨2, ![50000, 1]⟩) :
    layer1 x0 x2 (shapeCast (⟨2, ![50000, 1]⟩ : Shape) D h) = fun v => val_main_v30 (F := Ideal) x0 x2 v * D (ix1 (v 0)) := by
  funext v
  show (∑ k : Fin 128, x0 (ix2 (v 0) k) * x2 (ix2 k (v 1))) * shapeCast (⟨2, ![50000, 1]⟩ : Shape) D h (ix2 (v 0) (0 : Fin 1)) = _
  rw [val_main_v30_apply]
  refine congrArg₂ (· * ·) (Finset.sum_congr rfl fun k _ => ?_) (col_apply D h (v 0))
  have el : lidx_main_v30 v k = ix2 (v 0) k := funext fun a => by
    match a with
    | ⟨0, _⟩ => rfl
    | ⟨1, _⟩ => rfl
  have er : ridx_main_v30 v k = ix2 k (v 1) := funext fun a => by
    match a with
    | ⟨0, _⟩ => rfl
    | ⟨1, _⟩ => rfl
  exact (congrArg₂ (· * ·) (congrArg x0 el) (congrArg x2 er)).symm

/-! ## The first layer's segment sums -/

set_option maxHeartbeats 2000000 in
/-- The kernel's first segment sums, scaled by the target's d, are the reference's: an edge landing on a node has that
    node as its target, and the nonnegative real d of the target passes through the sum. -/
theorem agg_scaled (x0 : (⟨S50000x128, .f32⟩ : BufTy).Contents (Elt Ideal)) (x1 : (⟨S2x800000, .i32⟩ : BufTy).Contents (Elt Ideal))
    (x2 : (⟨S128x128, .f32⟩ : BufTy).Contents (Elt Ideal)) (hc : (⟨1, ![50000]⟩ : Shape).ShapeCasts ⟨2, ![50000, 1]⟩)
    (q : S50000x128.Idx) :
    Host.scatterAdd (F := Ideal) (φ := .f32) Cert.KernelIdeal.scatter_S50000x128_S850000x1_S850000x128_1_0_0_1 (val_main_v41 (F := Ideal))
        (val_main_v42 (F := Ideal) x1)
        (Host.gather Cert.KernelIdeal.gather_S50000x128_S850000x1_S850000x128_1_0_n_n_0_1_1128
          (layer1 x0 x2 (shapeCast (⟨2, ![50000, 1]⟩ : Shape) (val_main_v14 (F := Ideal) x1) hc)) (val_main_v36 (F := Ideal) x1)) q
      * shapeCast (⟨2, ![50000, 1]⟩ : Shape) (val_main_v14 (F := Ideal) x1) hc (ix2 (q 0) (0 : Fin 1))
    = val_main_v43 (F := Ideal) x0 x1 x2 q := by
  have e1 := layer1_eq x0 x2 (val_main_v14 (F := Ideal) x1) hc
  have e2 := layer1_sum x0 x1 x2 (scale_real x1) (wrap_keeps x1) zeros128 q
  rw [e1, zeros128, Cert.Dims.gather_dims _ _ Cert.Dims.kGather128, Cert.Dims.scatterAdd_dims _ _ Cert.Dims.kScatter128, e2]
  exact congrArg₂ (· * ·) rfl (col_apply _ hc (q 0))

/-! ## The result -/

set_option maxHeartbeats 2000000 in
/-- The kernel's result array is the reference's. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x40, .f32⟩ : BufTy).Contents (Elt Ideal)) (x5 : (⟨S40, .f32⟩ : BufTy).Contents (Elt Ideal))
    (hc : (⟨1, ![50000]⟩ : Shape).ShapeCasts ⟨2, ![50000, 1]⟩) (hr : (⟨1, ![128]⟩ : Shape).ShapeCasts ⟨2, ![1, 128]⟩)
    {u : Shape} (pv : u.Idx → EReal) (hp : S128x40.Pads ![0, 0] ![0, 88] ![0, 0] S128x128) (hu : 0 < u.numel)
    (hsl : S50000x128.Slices ![0, 0] S50000x40)
    (hb : (⟨2, ![50000, 1]⟩ : Shape).BroadcastsInDim S50000x40 (![0, 1] : Fin 2 → Fin S50000x40.rank)) :
    addf (F := Ideal) (φ := .f32) (mulf (F := Ideal) (φ := .f32)
        (Host.scatterAdd (F := Ideal) (φ := .f32) Cert.KernelIdeal.scatter_S50000x40_S850000x1_S850000x40_1_0_0_1 (val_main_v59 (F := Ideal))
          (val_main_v60 (F := Ideal) x1)
          (Host.gather Cert.KernelIdeal.gather_S50000x40_S850000x1_S850000x40_1_0_n_n_0_1_140
            (extractStridedSlice S50000x40 ![0, 0]
              (layer2
                (Host.scatterAdd (F := Ideal) (φ := .f32) Cert.KernelIdeal.scatter_S50000x128_S850000x1_S850000x128_1_0_0_1 (val_main_v41 (F := Ideal))
                  (val_main_v42 (F := Ideal) x1)
                  (Host.gather Cert.KernelIdeal.gather_S50000x128_S850000x1_S850000x128_1_0_n_n_0_1_1128
                    (layer1 x0 x2 (shapeCast (⟨2, ![50000, 1]⟩ : Shape) (val_main_v14 (F := Ideal) x1) hc))
                    (val_main_v36 (F := Ideal) x1)))
                (shapeCast (⟨2, ![50000, 1]⟩ : Shape) (val_main_v14 (F := Ideal) x1) hc)
                (shapeCast (⟨2, ![1, 128]⟩ : Shape) x3 hr)
                (pad S128x128 ![0, 0] ![0, 88] ![0, 0] x4 pv hp hu))
              hsl)
            (val_main_v54 (F := Ideal) x1)))
        (broadcastInDim S50000x40 ![0, 1] hb (shapeCast (⟨2, ![50000, 1]⟩ : Shape) (val_main_v14 (F := Ideal) x1) hc)))
      (val_main_v63 (F := Ideal) x5)
    = val_main_v64 (F := Ideal) x0 x1 x2 x3 x4 x5 := by
  have hU := funext (Cert.Bridge.Second.kept_columns x0 x1 x2 x3 x4 _ (val_main_v14 (F := Ideal) x1) hc hr pv hp hu hsl
    (agg_scaled x0 x1 x2 hc))
  rw [hU, zeros40]
  funext i
  have e2 := layer2_sum x0 x1 x2 x3 x4 (scale_real x1) (wrap_keeps x1) zeros40 i
  rw [val_main_v64_apply, e2, addf_apply, mulf_apply, Ideal.addf_def, Cert.Dims.gather_dims _ _ Cert.Dims.kGather40,
    Cert.Dims.scatterAdd_dims _ _ Cert.Dims.kScatter40]
  refine congrArg₂ (· + ·) (congrArg₂ (· * ·) rfl ?_) rfl
  exact (broadcastInDim_apply _ hb _ i (ix2 (i 0) (0 : Fin 1)) (fun a => by
    match a with
    | ⟨0, _⟩ => show (i 0).val = if (50000 : Nat) = 1 then 0 else (i 0).val; rw [if_neg (by decide)]
    | ⟨1, _⟩ => show 0 = if (1 : Nat) = 1 then 0 else (i 1).val; rw [if_pos rfl])).trans (col_apply _ hc (i 0))

end Cert.Bridge

end
-- ==== Proof.lean ====
/-
  The certificate of a two-layer graph convolution. The kernel program runs the two dense products as row-blocked
  matrix products on the TensorCore, each scaling its rows by the node scale d = deg^(-1/2), and leaves the gathers
  along the edges and the sums per target node to the host; the reference multiplies every message by
  d[source]·d[target] inside the sum. On the extended reals the two are one function of the arguments: the edge
  stages are the same operations, an edge that lands on a node has that node as its target, and the nonnegative real
  d of the target passes through the sum (no finiteness of the features or weights is used). The three frames are the
  programs' runs; the idealization rewrote nothing, so there is nothing to preserve.
-/
import proofs.«152939_j48919677501959_2_alg».proof.Defs
import proofs.«152939_j48919677501959_2_alg».proof.Proof.Gen.Kernel
import proofs.«152939_j48919677501959_2_alg».proof.Proof.Gen.Kernel.Frame
import proofs.«152939_j48919677501959_2_alg».proof.Proof.Gen.KernelIdeal
import proofs.«152939_j48919677501959_2_alg».proof.Proof.Gen.KernelIdeal.Frame
import proofs.«152939_j48919677501959_2_alg».proof.Proof.Gen.ReferenceIdeal
import proofs.«152939_j48919677501959_2_alg».proof.Proof.Gen.Pre_finite_inputs
import proofs.«152939_j48919677501959_2_alg».proof.Proof.RefRun
import proofs.«152939_j48919677501959_2_alg».proof.Proof.RefRead
import proofs.«152939_j48919677501959_2_alg».proof.Proof.KernelRun
import proofs.«152939_j48919677501959_2_alg».proof.Proof.KernelValue
import proofs.«152939_j48919677501959_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel's result as a
    function of its arguments is the reference's last stage. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v45),
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact ((Cert.KernelIdeal.Host.result_pure m ρ c).trans (Cert.Bridge.result_eq _ _ _ _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
